-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S128x64 : Shape := ⟨2, ![128, 64]⟩
abbrev S1x64 : Shape := ⟨2, ![1, 64]⟩
abbrev S10000x64 : Shape := ⟨2, ![10000, 64]⟩
abbrev S10000x1 : Shape := ⟨2, ![10000, 1]⟩
abbrev S10000x128 : Shape := ⟨2, ![10000, 128]⟩

abbrev nBuf : Space → Nat
  | .hbm => 38
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S100000x64, .bf16⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .bf16⟩
  | .hbm, ⟨19, _⟩ => ⟨S1250000x64, .f32⟩
  | .hbm, ⟨20, _⟩ => ⟨S_, .f32⟩
  | .hbm, ⟨21, _⟩ => ⟨S100000x64, .f32⟩
  | .hbm, ⟨22, _⟩ => ⟨S1250000x1, .i32⟩
  | .hbm, ⟨23, _⟩ => ⟨S100000x64, .f32⟩
  | .hbm, ⟨24, _⟩ => ⟨S_, .f32⟩
  | .hbm, ⟨25, _⟩ => ⟨S1250000, .f32⟩
  | .hbm, ⟨26, _⟩ => ⟨S_, .f32⟩
  | .hbm, ⟨27, _⟩ => ⟨S100000, .f32⟩
  | .hbm, ⟨28, _⟩ => ⟨S1250000x1, .i32⟩
  | .hbm, ⟨29, _⟩ => ⟨S100000, .f32⟩
  | .hbm, ⟨30, _⟩ => ⟨S100000x1, .f32⟩
  | .hbm, ⟨31, _⟩ => ⟨S100000x1, .bf16⟩
  | .hbm, ⟨32, _⟩ => ⟨S64x64, .f32⟩
  | .hbm, ⟨33, _⟩ => ⟨S64x64, .f32⟩
  | .hbm, ⟨34, _⟩ => ⟨S128x64, .f32⟩
  | .hbm, ⟨35, _⟩ => ⟨S128x64, .bf16⟩
  | .hbm, ⟨36, _⟩ => ⟨S1x64, .f32⟩
  | .hbm, ⟨37, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .bf16⟩
  | .local _ .vmem, ⟨3, _⟩ => ⟨S10000x1, .bf16⟩
  | .local _ .vmem, ⟨4, _⟩ => ⟨S10000x64, .bf16⟩
  | .local _ .vmem, ⟨5, _⟩ => ⟨S10000x64, .bf16⟩
  | .local _ .vmem, ⟨6, _⟩ => ⟨S128x64, .bf16⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bitsLt_bf16_f32 : FTy.bits .bf16 < FTy.bits .f32
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  concatenates_S64x64_S64x64_S128x64_d0 : Shape.Concatenates [S64x64, S64x64] S128x64 0
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  concatenates_S10000x64_S10000x64_S10000x128_d1 : Shape.Concatenates [S10000x64, S10000x64] S10000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .bf16 = 32 ∨ (Rect.block (s := S100000x1) S10000x1.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v15) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S_, .f32⟩
  | .hbm, ⟨19, _⟩ => ⟨S100000x64, .f32⟩
  | .hbm, ⟨20, _⟩ => ⟨S1250000x1, .i32⟩
  | .hbm, ⟨21, _⟩ => ⟨S100000x64, .f32⟩
  | .hbm, ⟨22, _⟩ => ⟨S_, .f32⟩
  | .hbm, ⟨23, _⟩ => ⟨S1250000, .f32⟩
  | .hbm, ⟨24, _⟩ => ⟨S_, .f32⟩
  | .hbm, ⟨25, _⟩ => ⟨S100000, .f32⟩
  | .hbm, ⟨26, _⟩ => ⟨S1250000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S64x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.LibConcat2.lean ====
/-
  General lemmas: two rank-2 arrays joined along one axis, read at an index written with `ix2`.

  * `[a, n]` and `[a, m]` joined along axis 1 into `[a, c]`: column `k < n` of the result is column `k` of the first
    piece, column `n + k` is column `k` of the second;
  * `[n, b]` and `[m, b]` joined along axis 0 into `[c, b]`: row `k < n` is row `k` of the first piece, row `n + k` is
    row `k` of the second;
  * a sum over `Fin c` with `c = n + n` as the sum over the first `n` positions plus the sum over the last `n`.
  Nothing here mentions a program: the extents are variables and the shape relation is a hypothesis.
-/
import Idealize.ShloMosaic.Lib.Pipeline.Value
import Idealize.ShloMosaic.Lib.ValueIdx

noncomputable section

namespace Cert.LibConcat2

open Idealize.ShloMosaic Idealize.ShloMosaic.ValueIdx

variable {α : Type}

/-- Joined along the columns: a column of the first piece. -/
theorem concat_cols_left {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin n) (hk : k.val < c) :
    concatenate (⟨2, ![a, c]⟩ : Shape) 1 [⟨⟨2, ![a, n]⟩, x⟩, ⟨⟨2, ![a, m]⟩, y⟩] h (ix2 p (⟨k.val, hk⟩ : Fin c)) = x (ix2 p k) :=
  concatenate_pair_apply_left (1 : Fin (⟨2, ![a, c]⟩ : Shape).rank) x y h _ rfl (ix2 p k) (fun b => by
    match b with
    | ⟨0, _⟩ => rfl
    | ⟨1, _⟩ => rfl)

/-- Joined along the columns: a column of the second piece sits the first piece's width further on. -/
theorem concat_cols_right {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin m) (hk : n + k.val < c) :
    concatenate (⟨2, ![a, c]⟩ : Shape) 1 [⟨⟨2, ![a, n]⟩, x⟩, ⟨⟨2, ![a, m]⟩, y⟩] h (ix2 p (⟨n + k.val, hk⟩ : Fin c)) = y (ix2 p k) :=
  concatenate_pair_apply_right (1 : Fin (⟨2, ![a, c]⟩ : Shape).rank) x y h _ rfl rfl (ix2 p k) (fun b hb => by
    match b with
    | ⟨0, _⟩ => rfl
    | ⟨1, _⟩ => exact absurd rfl hb) (by show k.val + n = n + k.val; omega)

/-- Joined along the rows: a row of the first piece. -/
theorem concat_rows_top {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin n) (hk : k.val < c) (q : Fin b) :
    concatenate (⟨2, ![c, b]⟩ : Shape) 0 [⟨⟨2, ![n, b]⟩, x⟩, ⟨⟨2, ![m, b]⟩, y⟩] h (ix2 (⟨k.val, hk⟩ : Fin c) q) = x (ix2 k q) :=
  concatenate_pair_apply_left (0 : Fin (⟨2, ![c, b]⟩ : Shape).rank) x y h _ rfl (ix2 k q) (fun d => by
    match d with
    | ⟨0, _⟩ => rfl
    | ⟨1, _⟩ => rfl)

/-- Joined along the rows: a row of the second piece sits the first piece's height further down. -/
theorem concat_rows_bottom {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin m) (hk : n + k.val < c) (q : Fin b) :
    concatenate (⟨2, ![c, b]⟩ : Shape) 0 [⟨⟨2, ![n, b]⟩, x⟩, ⟨⟨2, ![m, b]⟩, y⟩] h (ix2 (⟨n + k.val, hk⟩ : Fin c) q) = y (ix2 k q) :=
  concatenate_pair_apply_right (0 : Fin (⟨2, ![c, b]⟩ : Shape).rank) x y h _ rfl rfl (ix2 k q) (fun d hd => by
    match d with
    | ⟨0, _⟩ => exact absurd rfl hd
    | ⟨1, _⟩ => rfl) (by show k.val + n = n + k.val; omega)

/-- A sum over `c = n + n` positions is the sum over the first `n` plus the sum over the last `n`. -/
theorem sum_two_halves {M : Type*} [AddCommMonoid M] {n c : ℕ} (hc : c = n + n) (f : Fin c → M) :
    ∑ q : Fin c, f q
      = ∑ k : Fin n, f ⟨k.val, by have := k.isLt; omega⟩ + ∑ k : Fin n, f ⟨n + k.val, by have := k.isLt; omega⟩ := by
  subst hc
  rw [Fin.sum_univ_add]
  rfl

end Cert.LibConcat2

end
-- ==== Proof.SageSpec.lean ====
/-
  The mean-aggregation graph layer as ONE function of its arrays, index by index on the extended reals, and the law
  that joins the two arrangements of its dense half.

  With `S` the per-node sum of the incoming neighbours' feature rows, `C` the per-node count of incoming edges,
  `x` the nodes' own features and `one` the floor put under the count, the output at node `p`, feature `j` is

      (Σ_k (S p k / max (C p) one) · Wl j k  +  b j)  +  Σ_k x p k · Wr j k .

  A fused arrangement stacks the mean row and the node's own row into one row of `D + D` entries, stacks the two
  (transposed) weight arrays the same way, takes ONE sum over the `D + D` products and adds the bias last. The two agree
  because a sum over `D + D` positions splits into its two halves and addition on the extended reals is commutative and
  associative: no entry needs to be finite.
-/
import Idealize.ShloMosaic.PureOps.Ideal
import Idealize.ShloMosaic.Lib.ValueIdx
import proofs.«157558_j49675591746181_2_alg».proof.Proof.LibConcat2

noncomputable section

namespace Cert.SageSpec

open Idealize.ShloMosaic Idealize.ShloMosaic.ValueIdx

/-- The layer's output at an index: the neighbours' mean row through `Wl`, plus the bias, plus the node's own row
    through `Wr`. -/
def layer {N D O : ℕ} (one : EReal) (S : (⟨2, ![N, D]⟩ : Shape).Idx → EReal) (C : (⟨1, ![N]⟩ : Shape).Idx → EReal)
    (x : (⟨2, ![N, D]⟩ : Shape).Idx → EReal) (wl : (⟨2, ![O, D]⟩ : Shape).Idx → EReal)
    (b : (⟨1, ![O]⟩ : Shape).Idx → EReal) (wr : (⟨2, ![O, D]⟩ : Shape).Idx → EReal) :
    (⟨2, ![N, O]⟩ : Shape).Idx → EReal := fun i =>
  ((∑ k : Fin D, Ideal.div (S (ix2 (i 0) k)) (max (C (ix1 (i 0))) one) * wl (ix2 (i 1) k)) + b (ix1 (i 1)))
    + ∑ k : Fin D, x (ix2 (i 0) k) * wr (ix2 (i 1) k)

theorem layer_apply {N D O : ℕ} (one : EReal) (S : (⟨2, ![N, D]⟩ : Shape).Idx → EReal) (C : (⟨1, ![N]⟩ : Shape).Idx → EReal)
    (x : (⟨2, ![N, D]⟩ : Shape).Idx → EReal) (wl : (⟨2, ![O, D]⟩ : Shape).Idx → EReal)
    (b : (⟨1, ![O]⟩ : Shape).Idx → EReal) (wr : (⟨2, ![O, D]⟩ : Shape).Idx → EReal) (p : Fin N) (j : Fin O) :
    layer one S C x wl b wr (ix2 p j)
      = ((∑ k : Fin D, Ideal.div (S (ix2 p k)) (max (C (ix1 p)) one) * wl (ix2 j k)) + b (ix1 j))
        + ∑ k : Fin D, x (ix2 p k) * wr (ix2 j k) := rfl

/-- ONE sum over the stacked row's `D + D` products, bias added last, is the layer's arrangement: the sum splits into
    its halves and the bias moves in front of the second half. -/
theorem fused_eq {D c : ℕ} (hc : c = D + D) (f : Fin c → EReal) (β : EReal) (u v : Fin D → EReal)
    (hu : ∀ k : Fin D, f ⟨k.val, by have := k.isLt; omega⟩ = u k)
    (hv : ∀ k : Fin D, f ⟨D + k.val, by have := k.isLt; omega⟩ = v k) :
    (∑ q : Fin c, f q) + β = ((∑ k : Fin D, u k) + β) + ∑ k : Fin D, v k := by
  rw [LibConcat2.sum_two_halves hc f, add_right_comm]
  simp only [hu, hv]

end Cert.SageSpec

end
-- ==== Proof.KernelBlock.lean ====
/-
  What the kernel's body computes for one block of rows, read at an index.

  For a block of `10000` rows the body divides the block of neighbour sums `s` by the block of edge counts `cnt` floored
  at one (a column, spread over the 64 features), lays that mean block and the block of the nodes' own features `h` side by
  side into a `[10000, 128]` block, multiplies it into the stacked `[128, 64]` weights `w` from a zero accumulator and adds the
  bias row `β`. Entry `(p, j)` of the result is therefore

      Σ_{k<64} (s p k / max (cnt p) 1) · w k j  +  Σ_{k<64} h p k · w (64 + k) j  +  β j

  in the layer's arrangement (bias before the second sum): the matrix product into zero is the plain sum over the 128 stacked
  positions, the first 64 of which read the mean block and the last 64 the nodes' own block.
-/
import proofs.«157558_j49675591746181_2_alg».proof.Proof.Gen.KernelIdeal.Skeleton
import proofs.«157558_j49675591746181_2_alg».proof.Proof.LibDenseOps
import proofs.«157558_j49675591746181_2_alg».proof.Proof.LibConcat2
import proofs.«157558_j49675591746181_2_alg».proof.Proof.SageSpec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The floor put under the edge count: the float 1.0. -/
abbrev one : EReal := Ideal.ofBits .f32 0x3F800000#32

/-! ## The contraction's coordinates -/

theorem dot_lhs0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dot_lhs1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem dot_rhs0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem dot_rhs1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## The mean block -/

/-- The block of neighbour sums divided, row by row, by the edge count floored at one. -/
def meanBlock (cnt : FVec Ideal S10000x1 .bf16) (s : FVec Ideal S10000x64 .f32) : FVec Ideal S10000x64 .f32 :=
  divf (shapeCast S10000x64 s shapeCasts_S10000x64_S10000x64)
    (broadcastTo S10000x64 (maximumf (extf .f32 (shapeCast S10000x1 cnt shapeCasts_S10000x1_S10000x1) bitsLt_bf16_f32)
      (broadcast S10000x1 (Scalar.ofBits (F := Ideal) .f32 0x3F800000#32))) broadcasts_S10000x1_S10000x64)

theorem meanBlock_apply (cnt : FVec Ideal S10000x1 .bf16) (s : FVec Ideal S10000x64 .f32) (p : Fin 10000) (k : Fin 64) :
    meanBlock cnt s (ix2 p k) = Ideal.div (s (ix2 p k)) (max (cnt (ix2 p (0 : Fin 1))) one) := by
  unfold meanBlock
  rw [divf_apply, shapeCast_self, LibDenseOps.broadcastTo_a1_ab_apply, maximumf_apply, extf_apply, shapeCast_self]
  rfl

/-- The mean block and the nodes' own block side by side. -/
def stacked (cnt : FVec Ideal S10000x1 .bf16) (s : FVec Ideal S10000x64 .f32) (h : FVec Ideal S10000x64 .bf16) : FVec Ideal S10000x128 .bf16 :=
  concatenate S10000x128 1 [⟨S10000x64, truncf .bf16 (meanBlock cnt s) bitsLt_bf16_f32⟩, ⟨S10000x64, shapeCast S10000x64 h shapeCasts_S10000x64_S10000x64⟩] concatenates_S10000x64_S10000x64_S10000x128_d1

theorem stacked_left (cnt : FVec Ideal S10000x1 .bf16) (s : FVec Ideal S10000x64 .f32) (h : FVec Ideal S10000x64 .bf16)
    (p : Fin 10000) (k : Fin 64) (hk : k.val < 128) :
    stacked cnt s h (ix2 p (⟨k.val, hk⟩ : Fin 128)) = Ideal.div (s (ix2 p k)) (max (cnt (ix2 p (0 : Fin 1))) one) := by
  unfold stacked
  refine (LibConcat2.concat_cols_left _ _ concatenates_S10000x64_S10000x64_S10000x128_d1 p k hk).trans ?_
  rw [truncf_apply, meanBlock_apply]

theorem stacked_right (cnt : FVec Ideal S10000x1 .bf16) (s : FVec Ideal S10000x64 .f32) (h : FVec Ideal S10000x64 .bf16)
    (p : Fin 10000) (k : Fin 64) (hk : 64 + k.val < 128) :
    stacked cnt s h (ix2 p (⟨64 + k.val, hk⟩ : Fin 128)) = h (ix2 p k) := by
  unfold stacked
  refine (LibConcat2.concat_cols_right _ _ concatenates_S10000x64_S10000x64_S10000x128_d1 p k hk).trans ?_
  rw [shapeCast_self]

/-! ## The payload -/

/-- The body's stored value is the stacked block through the stacked weights, plus the bias row. -/
theorem pay_eq (cnt : FVec Ideal S10000x1 .bf16) (s : FVec Ideal S10000x64 .f32) (h : FVec Ideal S10000x64 .bf16)
    (w : FVec Ideal S128x64 .bf16) (β : FVec Ideal S1x64 .f32) :
    k0_pay1 (F := Ideal) cnt s h w β
      = addf (matmul dot_S10000x128_S128x64_S10000x64_1_0_0_1_n_n none (stacked cnt s h)
          (shapeCast S128x64 w shapeCasts_S128x64_S128x64) (constant S10000x64 .f32 0x00000000#32))
        (broadcastTo S10000x64 (shapeCast S1x64 β shapeCasts_S1x64_S1x64) broadcasts_S1x64_S10000x64) := rfl

/-- Entry `(p, j)` of the body's stored value, in the layer's arrangement. -/
theorem pay_apply (cnt : FVec Ideal S10000x1 .bf16) (s : FVec Ideal S10000x64 .f32) (h : FVec Ideal S10000x64 .bf16)
    (w : FVec Ideal S128x64 .bf16) (β : FVec Ideal S1x64 .f32) (p : Fin 10000) (j : Fin 64) :
    k0_pay1 (F := Ideal) cnt s h w β (ix2 p j)
      = ((∑ k : Fin 64, Ideal.div (s (ix2 p k)) (max (cnt (ix2 p (0 : Fin 1))) one) * w (ix2 (⟨k.val, by have := k.isLt; omega⟩ : Fin 128) j))
          + β (ix2 (0 : Fin 1) j))
        + ∑ k : Fin 64, h (ix2 p k) * w (ix2 (⟨64 + k.val, by have := k.isLt; omega⟩ : Fin 128) j) := by
  rw [pay_eq, addf_apply]
  refine (congrArg₂ (· + ·)
    (LibDenseOps.matmul_zero_ix2 dot_S10000x128_S128x64_S10000x64_1_0_0_1_n_n rfl rfl dot_lhs0 dot_lhs1 dot_rhs0 dot_rhs1 none
      (stacked cnt s h) (shapeCast S128x64 w shapeCasts_S128x64_S128x64) p j)
    (broadcastTo_1b_ab_apply (shapeCast S1x64 β shapeCasts_S1x64_S1x64) broadcasts_S1x64_S10000x64 p j)).trans ?_
  rw [shapeCast_self, shapeCast_self]
  exact SageSpec.fused_eq (D := 64) (c := 128) rfl (fun q : Fin 128 => stacked cnt s h (ix2 p q) * w (ix2 q j)) (β (ix2 (0 : Fin 1) j))
    _ _ (fun k => by show stacked cnt s h (ix2 p _) * _ = _; rw [stacked_left]) (fun k => by show stacked cnt s h (ix2 p _) * _ = _; rw [stacked_right])

/-- The body on blocks cut from whole arrays — row `p` of the sum, count and feature blocks is row `r p` of the whole
    arrays, the stacked weights hold `Wl` and `Wr` transposed, the bias row holds `b` — stores rows `r p` of the layer. -/
theorem block_is_layer (cnt : FVec Ideal S10000x1 .bf16) (s : FVec Ideal S10000x64 .f32) (h : FVec Ideal S10000x64 .bf16)
    (w : FVec Ideal S128x64 .bf16) (β : FVec Ideal S1x64 .f32)
    (S : S100000x64.Idx → EReal) (C : S100000.Idx → EReal) (x : S100000x64.Idx → EReal)
    (wl : S64x64.Idx → EReal) (b : S64.Idx → EReal) (wr : S64x64.Idx → EReal) (r : Fin 10000 → Fin 100000)
    (hs : ∀ (p : Fin 10000) (k : Fin 64), s (ix2 p k) = S (ix2 (r p) k))
    (hcnt : ∀ p : Fin 10000, cnt (ix2 p (0 : Fin 1)) = C (ix1 (r p)))
    (hh : ∀ (p : Fin 10000) (k : Fin 64), h (ix2 p k) = x (ix2 (r p) k))
    (hwl : ∀ (k : Fin 64) (hk : k.val < 128) (j : Fin 64), w (ix2 (⟨k.val, hk⟩ : Fin 128) j) = wl (ix2 j k))
    (hwr : ∀ (k : Fin 64) (hk : 64 + k.val < 128) (j : Fin 64), w (ix2 (⟨64 + k.val, hk⟩ : Fin 128) j) = wr (ix2 j k))
    (hβ : ∀ j : Fin 64, β (ix2 (0 : Fin 1) j) = b (ix1 j)) (p : Fin 10000) (j : Fin 64) :
    k0_pay1 (F := Ideal) cnt s h w β (ix2 p j) = SageSpec.layer one S C x wl b wr (ix2 (r p) j) := by
  rw [pay_apply, SageSpec.layer_apply]
  simp only [hs, hcnt, hh, hwl, hwr, hβ]

end Cert.KernelIdeal.Block

end
-- ==== Proof.HostArrays.lean ====
/-
  What the region finds in the arrays it stages, as functions of the program's arguments.

  Before the region the program gathers the source node's feature row for every edge and adds it into the row of the edge's
  target node (`summed`), adds a one per edge into the target node's count (`count`), lays the two weight arrays,
  transposed, one above the other, and re-lays the count as a column and the bias as a row. The changes of float format on
  the way are the identity on the extended reals. The two scatter-adds are carried as they stand, never opened: the reference
  forms the very same terms.
-/
import proofs.«157558_j49675591746181_2_alg».proof.Proof.Gen.KernelIdeal.Frame
import proofs.«157558_j49675591746181_2_alg».proof.Proof.LibDenseOps
import proofs.«157558_j49675591746181_2_alg».proof.Proof.LibConcat2
import Idealize.ShloMosaic.Lib.ValueLayout
import Idealize.ShloMosaic.Lib.ValueIdx
import Idealize.ShloMosaic.Lib.Pipeline.Value
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

/-! ## The two segment sums, as the program forms them -/

/-- The target node of every edge, as a column of scatter indices. -/
def targets (ei : IVec S2x1250000 32) : IVec S1250000x1 32 :=
  broadcastInDim S1250000x1 ![0] bcast_S1250000_S1250000x1_0
    (shapeCast _ (extractStridedSlice S1x1250000 ![1, 0] ei slices_S2x1250000_S1x1250000_1_0) shapeCasts_S1x1250000_S1250000)

/-- The source node of every edge (a negative number counted from the end), as a column of gather indices. -/
def sources (ei : IVec S2x1250000 32) : IVec S1250000x1 32 :=
  broadcastInDim S1250000x1 ![0] bcast_S1250000_S1250000x1_0
    (select (cmpi .slt (shapeCast _ (extractStridedSlice S1x1250000 ![0, 0] ei slices_S2x1250000_S1x1250000_0_0) shapeCasts_S1x1250000_S1250000) (broadcastInDim S1250000 ![] bcast_S_S1250000 (constantI S_ 32 0#32)))
      (addi (shapeCast _ (extractStridedSlice S1x1250000 ![0, 0] ei slices_S2x1250000_S1x1250000_0_0) shapeCasts_S1x1250000_S1250000) (broadcastInDim S1250000 ![] bcast_S_S1250000 (constantI S_ 32 100000#32)))
      (shapeCast _ (extractStridedSlice S1x1250000 ![0, 0] ei slices_S2x1250000_S1x1250000_0_0) shapeCasts_S1x1250000_S1250000))

/-- Per node, the sum of its incoming edges' source rows. -/
def summed (x : FVec Ideal S100000x64 .f32) (ei : IVec S2x1250000 32) : FVec Ideal S100000x64 .f32 :=
  Host.scatterAdd scatter_S100000x64_S1250000x1_S1250000x64_1_0_0_1
    (broadcastInDim S100000x64 ![] bcast_S_S100000x64 (constant (F := Ideal) S_ .f32 0x00000000#32)) (targets ei)
    (extf .f32 (Host.gather gather_S100000x64_S1250000x1_S1250000x64_1_0_n_n_0_1_164 (truncf .bf16 x bitsLt_bf16_f32) (sources ei)) bitsLt_bf16_f32)

/-- Per node, the number of its incoming edges. -/
def count (ei : IVec S2x1250000 32) : FVec Ideal S100000 .f32 :=
  Host.scatterAdd scatter_S100000_S1250000x1_S1250000_n_0_0_1
    (broadcastInDim S100000 ![] bcast_S_S100000 (constant (F := Ideal) S_ .f32 0x00000000#32)) (targets ei)
    (broadcastInDim S1250000 ![] bcast_S_S1250000 (constant (F := Ideal) S_ .f32 0x3F800000#32))

variable (m : (ℓ : Loc nD τ sig) → Buf (Elt Ideal) ℓ)

/-! ## The staged arrays -/

/-- Window 0's array: the neighbour sums. -/
theorem staged_summed (c : Dev nD) :
    (V m c main_v15 : S100000x64.Idx → EReal) = summed (m ((c : Thread nD τ).loc main_arg0)) (m ((c : Thread nD τ).loc main_arg1)) := by
  dsimp only [Gen.V, Gen.hostOps0]; after_results <;> rfl

/-- Window 1's array: the counts as a column. -/
theorem staged_count (c : Dev nD) :
    (V m c main_v21 : S100000x1.Idx → EReal)
      = truncf .bf16 (shapeCast S100000x1 (count (m ((c : Thread nD τ).loc main_arg1))) shapeCasts_S100000_S100000x1) bitsLt_bf16_f32 := by
  dsimp only [Gen.V, Gen.hostOps0]; after_results <;> rfl

theorem staged_count_apply (c : Dev nD) (p : Fin 100000) :
    (V m c main_v21 : S100000x1.Idx → EReal) (ix2 p (0 : Fin 1)) = count (m ((c : Thread nD τ).loc main_arg1)) (ix1 p) := by
  rw [staged_count, truncf_apply]
  exact LibDenseOps.shapeCast_a_a1_apply _ shapeCasts_S100000_S100000x1 p 0

/-- Window 2's array: the nodes' own features. -/
theorem staged_own (c : Dev nD) :
    (V m c main_v4 : S100000x64.Idx → EReal) = (m ((c : Thread nD τ).loc main_arg0) : S100000x64.Idx → EReal) := by
  have e : (V m c main_v4 : S100000x64.Idx → EReal) = (truncf .bf16 (m ((c : Thread nD τ).loc main_arg0) : FVec Ideal S100000x64 .f32) bitsLt_bf16_f32 : FVec Ideal S100000x64 .bf16) := by
    dsimp only [Gen.V, Gen.hostOps0]; after_results <;> rfl
  rw [e]; rfl

/-- Window 3's array: the two weight arrays, transposed, one above the other. -/
theorem staged_weights (c : Dev nD) :
    (V m c main_v25 : S128x64.Idx → EReal)
      = truncf .bf16 (concatenate S128x64 0 [⟨S64x64, transpose S64x64 [1, 0] (m ((c : Thread nD τ).loc main_arg2) : FVec Ideal S64x64 .f32) transposes_S64x64_S64x64_1_0⟩,
          ⟨S64x64, transpose S64x64 [1, 0] (m ((c : Thread nD τ).loc main_arg4) : FVec Ideal S64x64 .f32) transposes_S64x64_S64x64_1_0⟩] concatenates_S64x64_S64x64_S128x64_d0 : FVec Ideal S128x64 .f32) bitsLt_bf16_f32 := by
  dsimp only [Gen.V, Gen.hostOps0]; after_results <;> rfl

theorem staged_weights_top (c : Dev nD) (k : Fin 64) (hk : k.val < 128) (j : Fin 64) :
    (V m c main_v25 : S128x64.Idx → EReal) (ix2 (⟨k.val, hk⟩ : Fin 128) j) = (m ((c : Thread nD τ).loc main_arg2) : S64x64.Idx → EReal) (ix2 j k) := by
  rw [staged_weights, truncf_apply]
  refine (LibConcat2.concat_rows_top _ _ concatenates_S64x64_S64x64_S128x64_d0 k hk j).trans ?_
  exact transpose_ix2_apply _ transposes_S64x64_S64x64_1_0 k j

theorem staged_weights_bottom (c : Dev nD) (k : Fin 64) (hk : 64 + k.val < 128) (j : Fin 64) :
    (V m c main_v25 : S128x64.Idx → EReal) (ix2 (⟨64 + k.val, hk⟩ : Fin 128) j) = (m ((c : Thread nD τ).loc main_arg4) : S64x64.Idx → EReal) (ix2 j k) := by
  rw [staged_weights, truncf_apply]
  refine (LibConcat2.concat_rows_bottom _ _ concatenates_S64x64_S64x64_S128x64_d0 k hk j).trans ?_
  exact transpose_ix2_apply _ transposes_S64x64_S64x64_1_0 k j

/-- Window 4's array: the bias as a row. -/
theorem staged_bias_apply (c : Dev nD) (j : Fin 64) :
    (V m c main_v26 : S1x64.Idx → EReal) (ix2 (0 : Fin 1) j) = (m ((c : Thread nD τ).loc main_arg3) : S64.Idx → EReal) (ix1 j) := by
  have e : (V m c main_v26 : S1x64.Idx → EReal) = (shapeCast S1x64 (m ((c : Thread nD τ).loc main_arg3) : FVec Ideal S64 .f32) shapeCasts_S64_S1x64 : FVec Ideal S1x64 .f32) := by
    dsimp only [Gen.V, Gen.hostOps0]; after_results <;> rfl
  rw [e]
  exact shapeCast_a_1a_apply _ shapeCasts_S64_S1x64 0 j

end Cert.KernelIdeal.Staged

end
-- ==== Proof.Whole.lean ====
/-
  From blocks to the whole array: after the run the kernel's result array holds the layer.

  The grid has ten points; point `t` stages rows `t·10000 … t·10000 + 9999` of the neighbour sums, of the count column and of
  the nodes' own features, the whole stacked weights and the whole bias row, and writes back rows `t·10000 …` of the result.
  What it writes back is those rows of the layer (the body on a block of rows is the layer on those rows), the ten blocks of
  rows cover the `100000` rows, so the result array ends holding the layer of the arrays the region found.
-/
import proofs.«157558_j49675591746181_2_alg».proof.Proof.Gen.KernelIdeal.Value
import proofs.«157558_j49675591746181_2_alg».proof.Proof.KernelBlock
import proofs.«157558_j49675591746181_2_alg».proof.Proof.HostArrays
import proofs.«157558_j49675591746181_2_alg».proof.Proof.SageSpec
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer of the program's arguments: neighbour sums and counts as the program forms them. -/
def result (c : Dev nD) : S100000x64.Idx → EReal :=
  SageSpec.layer Block.one
    (Staged.summed (m ((c : Thread nD τ).loc main_arg0)) (m ((c : Thread nD τ).loc main_arg1)))
    (Staged.count (m ((c : Thread nD τ).loc main_arg1)))
    (m ((c : Thread nD τ).loc main_arg0)) (m ((c : Thread nD τ).loc main_arg2))
    (m ((c : Thread nD τ).loc main_arg3)) (m ((c : Thread nD τ).loc main_arg4))

theorem hz : (![0, 0] : Fin 2 → Nat) = fun _ => 0 := funext fun a => by fin_cases a <;> rfl

/-- The printed index maps over the ten points: the row-blocked windows sit at block `t` of the rows, the weights and the
    bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := by
  have h : t.val < grid0.N := t.isLt
  rw [N_0] at h
  exact h

/-- Row `p` of point `t`'s block of rows is row `t·10000 + p` of the array. -/
def row (t : Fin cfg0.N) (p : Fin 10000) : Fin 100000 :=
  ⟨t.val * 10000 + p.val, by have := point_lt t; have := p.isLt; omega⟩

/-! ## Each input block, read where the output's block says -/

/-- The arrays the six windows stage, by the names the program gives them. -/
theorem arr0 (c : Dev nD) : (V m c (Pipeline.arrRef spec0 0) : S100000x64.Idx → EReal) = (V m c main_v15 : S100000x64.Idx → EReal) := rfl
theorem arr1 (c : Dev nD) : (V m c (Pipeline.arrRef spec0 1) : S100000x1.Idx → EReal) = (V m c main_v21 : S100000x1.Idx → EReal) := rfl
theorem arr2 (c : Dev nD) : (V m c (Pipeline.arrRef spec0 2) : S100000x64.Idx → EReal) = (V m c main_v4 : S100000x64.Idx → EReal) := rfl
theorem arr3 (c : Dev nD) : (V m c (Pipeline.arrRef spec0 3) : S128x64.Idx → EReal) = (V m c main_v25 : S128x64.Idx → EReal) := rfl
theorem arr4 (c : Dev nD) : (V m c (Pipeline.arrRef spec0 4) : S1x64.Idx → EReal) = (V m c main_v26 : S1x64.Idx → EReal) := rfl

theorem read_summed (c : Dev nD) (t : Fin cfg0.N) (p : Fin 10000) (k : Fin 64) :
    (iblk m c 0 t : S10000x64.Idx → EReal) (ix2 p k)
      = Staged.summed (m ((c : Thread nD τ).loc main_arg0)) (m ((c : Thread nD τ).loc main_arg1)) (ix2 (row t p) k) := by
  unfold iblk
  rw [View.read_apply]
  refine (eq_of_heq (cast_heq _ _)).trans ?_
  refine (congrFun ((arr0 m c).trans (Staged.staged_summed m c)) _).trans ?_
  refine congrArg (Staged.summed (m ((c : Thread nD τ).loc main_arg0)) (m ((c : Thread nD τ).loc main_arg1))) ?_
  obtain ⟨e0, e1, -⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

theorem read_count (c : Dev nD) (t : Fin cfg0.N) (p : Fin 10000) :
    (iblk m c 1 t : S10000x1.Idx → EReal) (ix2 p (0 : Fin 1))
      = Staged.count (m ((c : Thread nD τ).loc main_arg1)) (ix1 (row t p)) := by
  unfold iblk
  rw [View.read_apply]
  refine (eq_of_heq (cast_heq _ _)).trans ?_
  refine (congrFun (arr1 m c) _).trans ?_
  refine Eq.trans (congrArg (V m c main_v21 : S100000x1.Idx → EReal) ?_) (Staged.staged_count_apply m c (row t p))
  obtain ⟨-, -, e0, e1, -⟩ := idx_facts t
  funext a; apply Fin.ext
  match a with
  | ⟨0, _⟩ => show win0_1.index t (0 : Fin 2) * 10000 + 1 * p.val = t.val * 10000 + p.val; omega
  | ⟨1, _⟩ => show win0_1.index t (1 : Fin 2) * 1 + 1 * 0 = 0; omega

theorem read_own (c : Dev nD) (t : Fin cfg0.N) (p : Fin 10000) (k : Fin 64) :
    (iblk m c 2 t : S10000x64.Idx → EReal) (ix2 p k)
      = (m ((c : Thread nD τ).loc main_arg0) : S100000x64.Idx → EReal) (ix2 (row t p) k) := by
  unfold iblk
  rw [View.read_apply]
  refine (eq_of_heq (cast_heq _ _)).trans ?_
  refine (congrFun ((arr2 m c).trans (Staged.staged_own m c)) _).trans ?_
  refine congrArg (m ((c : Thread nD τ).loc main_arg0) : S100000x64.Idx → EReal) ?_
  obtain ⟨-, -, -, -, e0, e1, -⟩ := idx_facts t
  funext a; apply Fin.ext
  match a with
  | ⟨0, _⟩ => show win0_2.index t (0 : Fin 2) * 10000 + 1 * p.val = t.val * 10000 + p.val; omega
  | ⟨1, _⟩ => show win0_2.index t (1 : Fin 2) * 64 + 1 * k.val = k.val; omega

theorem read_weights_top (c : Dev nD) (t : Fin cfg0.N) (k : Fin 64) (hk : k.val < 128) (j : Fin 64) :
    (iblk m c 3 t : S128x64.Idx → EReal) (ix2 (⟨k.val, hk⟩ : Fin 128) j)
      = (m ((c : Thread nD τ).loc main_arg2) : S64x64.Idx → EReal) (ix2 j k) := by
  unfold iblk
  rw [View.read_apply]
  refine (eq_of_heq (cast_heq _ _)).trans ?_
  refine (congrFun (arr3 m c) _).trans ?_
  refine Eq.trans (congrArg (V m c main_v25 : S128x64.Idx → EReal) ?_) (Staged.staged_weights_top m c k hk j)
  obtain ⟨-, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 64 + 1 * j.val = j.val; omega

theorem read_weights_bottom (c : Dev nD) (t : Fin cfg0.N) (k : Fin 64) (hk : 64 + k.val < 128) (j : Fin 64) :
    (iblk m c 3 t : S128x64.Idx → EReal) (ix2 (⟨64 + k.val, hk⟩ : Fin 128) j)
      = (m ((c : Thread nD τ).loc main_arg4) : S64x64.Idx → EReal) (ix2 j k) := by
  unfold iblk
  rw [View.read_apply]
  refine (eq_of_heq (cast_heq _ _)).trans ?_
  refine (congrFun (arr3 m c) _).trans ?_
  refine Eq.trans (congrArg (V m c main_v25 : S128x64.Idx → EReal) ?_) (Staged.staged_weights_bottom m c k hk j)
  obtain ⟨-, -, -, -, -, -, e0, e1, -⟩ := idx_facts t
  funext a; apply Fin.ext
  match a with
  | ⟨0, _⟩ => show win0_3.index t (0 : Fin 2) * 128 + 1 * (64 + k.val) = 64 + k.val; omega
  | ⟨1, _⟩ => show win0_3.index t (1 : Fin 2) * 64 + 1 * j.val = j.val; omega

theorem read_bias (c : Dev nD) (t : Fin cfg0.N) (j : Fin 64) :
    (iblk m c 4 t : S1x64.Idx → EReal) (ix2 (0 : Fin 1) j)
      = (m ((c : Thread nD τ).loc main_arg3) : S64.Idx → EReal) (ix1 j) := by
  unfold iblk
  rw [View.read_apply]
  refine (eq_of_heq (cast_heq _ _)).trans ?_
  refine (congrFun (arr4 m c) _).trans ?_
  refine Eq.trans (congrArg (V m c main_v26 : S1x64.Idx → EReal) ?_) (Staged.staged_bias_apply m c j)
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 64 + 1 * j.val = j.val; omega

/-! ## What a point writes back -/

/-- Point `t` writes back rows `t·10000 …` of the layer. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S10000x64) hz, View.ld_unit_zero (S := S10000x1) hz, View.ld_unit_zero (S := S128x64) hz, View.ld_unit_zero (S := S1x64) hz]
  funext y
  rw [View.read_apply]
  refine Eq.trans ?_ (eq_of_heq (cast_heq _ _)).symm
  have hy0 : (y 0).val < 10000 := (y 0).isLt
  have hy1 : (y 1).val < 64 := (y 1).isLt
  -- the block's element `y`, by its two coordinates, in the block and in the array
  have hx : (win0 5).xinj (grid0.coords t) y = ix2 (⟨(y 0).val, hy0⟩ : Fin 10000) (⟨(y 1).val, hy1⟩ : Fin 64) :=
    funext fun a => Fin.ext (by match a with | ⟨0, _⟩ => rfl | ⟨1, _⟩ => rfl)
  have he : ((View.whole main_v27).slice ((win0 5).rect t)).emb y
      = ix2 (row t (⟨(y 0).val, hy0⟩ : Fin 10000)) (⟨(y 1).val, hy1⟩ : Fin 64) := by
    obtain ⟨-, -, -, -, -, -, -, -, -, -, e0, e1⟩ := idx_facts t
    funext a; apply Fin.ext
    match a with
    | ⟨0, _⟩ => show win0_5.index t (0 : Fin 2) * 10000 + 1 * (y 0).val = t.val * 10000 + (y 0).val; omega
    | ⟨1, _⟩ => show win0_5.index t (1 : Fin 2) * 64 + 1 * (y 1).val = (y 1).val; omega
  refine Eq.trans (congrArg (k0_pay1 (F := Ideal) (iblk m c 1 t) (iblk m c 0 t) (iblk m c 2 t) (iblk m c 3 t) (iblk m c 4 t)) hx) ?_
  refine Eq.trans ?_ (congrArg (result m c) he).symm
  exact Block.block_is_layer (iblk m c 1 t) (iblk m c 0 t) (iblk m c 2 t) (iblk m c 3 t) (iblk m c 4 t)
    (Staged.summed (m ((c : Thread nD τ).loc main_arg0)) (m ((c : Thread nD τ).loc main_arg1)))
    (Staged.count (m ((c : Thread nD τ).loc main_arg1)))
    (m ((c : Thread nD τ).loc main_arg0)) (m ((c : Thread nD τ).loc main_arg2))
    (m ((c : Thread nD τ).loc main_arg3)) (m ((c : Thread nD τ).loc main_arg4)) (row t)
    (read_summed m c t) (read_count m c t) (read_own m c t) (read_weights_top m c t) (read_weights_bottom m c t) (read_bias m c t)
    (⟨(y 0).val, hy0⟩ : Fin 10000) (⟨(y 1).val, hy1⟩ : Fin 64)

/-! ## The ten blocks of rows cover the array -/

theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v27).slice (win0_5.rect t)).set ↔ _
  rw [View.set_slice_whole, Rect.mem_set_unit]
  exact Iff.rfl

/-- Every block of rows is some point's. -/
theorem idx_onto : ∀ q : Fin 10, ∃ t : Fin cfg0.N, win0_5.index t = ![q.val, 0] :=
  (by decide +kernel : ∀ q : Fin 10, ∃ t : Fin grid0.N, win0_5.index t = ![q.val, 0])

theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-! ## The array after the run, and the run -/

theorem final (c : Dev nD) : (dats m 0 c).arrAt 5 cfg0.N = result m c :=
  (dats m 0 c).arrAt_eq_of_cover 5 (result m c) (fun t _ => flushed_eq m c t) cover

/-- Every weakly fair execution of the program ends with the result array holding the layer and the arguments unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefIsSpec.lean ====
/-
  The reference's result is the layer.

  Read one operation at a time, entry `(p, j)` of the reference's result is: the row `p` of neighbour sums divided by the
  count of node `p` floored at one, through the transposed `Wl` (a sum over the 64 features), plus the bias entry `j`, plus
  the node's own row through the transposed `Wr` — the layer of SageSpec with the reference's two scatter-add stages as
  its neighbour sums and counts.
-/
import proofs.«157558_j49675591746181_2_alg».proof.Proof.Gen.ReferenceIdeal.Read
import proofs.«157558_j49675591746181_2_alg».proof.Proof.SageSpec
import Idealize.ShloMosaic.Lib.ValueIdx

noncomputable section

namespace Cert.ReferenceIdeal.RefValue

open Cert.ReferenceIdeal Cert.ReferenceIdeal.Read Idealize.ShloMosaic Idealize.ShloMosaic.ValueIdx

/-- The floor put under the edge count: the float 1.0. -/
abbrev one : EReal := Ideal.ofBits .f32 0x3F800000#32

/-! ## The composed index maps, at `(p, j)` -/

theorem lhs_mean (p : Fin 100000) (j k : Fin 64) : lidx_main_v24 (ix2 p j) k = ix2 p k :=
  funext fun a => Fin.ext (by match a with | ⟨0, _⟩ => rfl | ⟨1, _⟩ => rfl)
theorem rhs_mean (p : Fin 100000) (j k : Fin 64) : idx_main_v23 (ridx_main_v24 (ix2 p j) k) = ix2 j k :=
  funext fun a => Fin.ext (by match a with | ⟨0, _⟩ => rfl | ⟨1, _⟩ => rfl)
theorem lhs_own (p : Fin 100000) (j k : Fin 64) : lidx_main_v29 (ix2 p j) k = ix2 p k :=
  funext fun a => Fin.ext (by match a with | ⟨0, _⟩ => rfl | ⟨1, _⟩ => rfl)
theorem rhs_own (p : Fin 100000) (j k : Fin 64) : idx_main_v28 (ridx_main_v29 (ix2 p j) k) = ix2 j k :=
  funext fun a => Fin.ext (by match a with | ⟨0, _⟩ => rfl | ⟨1, _⟩ => rfl)
theorem count_idx (p : Fin 100000) (k : Fin 64) : idx_main_v20 (idx_main_v21 (ix2 p k)) = ix1 p :=
  funext fun a => Fin.ext (by match a with | ⟨0, _⟩ => rfl)
theorem bias_idx (p : Fin 100000) (j : Fin 64) : idx_main_v25 (idx_main_v26 (ix2 p j)) = ix1 j :=
  funext fun a => Fin.ext (by match a with | ⟨0, _⟩ => rfl)

/-! ## The stages, at `(p, j)` -/

/-- The mean stage: the neighbour sum over the floored count. -/
theorem mean_apply (x0 : (⟨S100000x64, .f32⟩ : BufTy).Contents (Elt Ideal)) (x1 : (⟨S2x1250000, .i32⟩ : BufTy).Contents (Elt Ideal))
    (p : Fin 100000) (k : Fin 64) :
    val_main_v22 (F := Ideal) x0 x1 (ix2 p k)
      = Ideal.div (val_main_v13 (F := Ideal) x0 x1 (ix2 p k)) (max (val_main_v17 (F := Ideal) x1 (ix1 p)) one) := by
  rw [val_main_v22_apply, val_main_v21_apply, val_main_v20_apply, val_main_v19_apply, val_main_v18_apply, val_main_cst_3_apply, count_idx]
  rfl

/-- The reference's result is the layer of its own neighbour sums and counts. -/
theorem result_is_layer (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v30 (F := Ideal) x0 x1 x2 x3 x4
      = SageSpec.layer one (val_main_v13 (F := Ideal) x0 x1) (val_main_v17 (F := Ideal) x1) x0 x2 x3 x4 := by
  funext i
  obtain ⟨p, j, rfl⟩ : ∃ (p : Fin 100000) (j : Fin 64), i = ix2 p j := ⟨i 0, i 1, eq_ix2 i⟩
  rw [SageSpec.layer_apply, val_main_v30_apply, val_main_v27_apply, val_main_v24_apply, val_main_v29_apply, val_main_v26_apply, val_main_v25_apply, bias_idx]
  show (_ + _) + _ = (_ + _) + _
  refine congrArg₂ (· + ·) (congrArg₂ (· + ·) (Finset.sum_congr rfl fun k _ => ?_) rfl) (Finset.sum_congr rfl fun k _ => ?_)
  · rw [lhs_mean, val_main_v23_apply, rhs_mean, mean_apply]
  · rw [lhs_own, val_main_v28_apply, rhs_own]

end Cert.ReferenceIdeal.RefValue

end
-- ==== Proof.PrefixAgree.lean ====
/-
  The two programs form the same neighbour sums and the same edge counts.

  Before the dense half both programs gather the source node's row for every edge and add it into the target node's row, and
  add a one per edge into the target node's count — the same gather and the same two scatter-adds over the same index
  columns. The kernel's program narrows the features to a shorter float format before the gather and widens the gathered rows
  again; on the extended reals both changes of format are the identity, so the terms are the same term.
-/
import proofs.«157558_j49675591746181_2_alg».proof.Proof.HostArrays
import proofs.«157558_j49675591746181_2_alg».proof.Proof.Gen.ReferenceIdeal.Read

noncomputable section

namespace Cert.Prefix

open Idealize.ShloMosaic

/-- The kernel program's neighbour sums are the reference's scatter stage. -/
theorem summed_agree (x : FVec Ideal Cert.KernelIdeal.S100000x64 .f32) (ei : IVec Cert.KernelIdeal.S2x1250000 32) :
    Cert.KernelIdeal.Staged.summed x ei = Cert.ReferenceIdeal.Read.val_main_v13 (F := Ideal) x ei := rfl

/-- The kernel program's edge counts are the reference's scatter stage. -/
theorem count_agree (ei : IVec Cert.KernelIdeal.S2x1250000 32) :
    Cert.KernelIdeal.Staged.count ei = Cert.ReferenceIdeal.Read.val_main_v17 (F := Ideal) ei := rfl

end Cert.Prefix

end
-- ==== Proof.lean ====
/-
  A mean-aggregation graph layer, computed two ways, gives the same array on the extended reals.

  Both programs first form, for every node, the sum `S` of its incoming neighbours' feature rows (a gather of the source rows,
  scatter-added at the target nodes) and the count `C` of its incoming edges (ones scatter-added at the target nodes): the same
  terms in both (Proof/PrefixAgree.lean; the kernel program's changes of float format are the identity on the extended reals).

  The reference then computes, at node `p` and output feature `j`,

      (Σ_k (S p k / max (C p) 1) · Wl j k  +  b j)  +  Σ_k x p k · Wr j k          (Proof/RefIsSpec.lean).

  The kernel works on ten blocks of 10000 rows. On each block it lays the mean rows and the nodes' own rows side by side
  (128 entries per row), multiplies them into the two transposed weight arrays laid one above the other (128 rows) from a zero
  accumulator, and adds the bias row last: Σ_{q<128} [mean | x] p q · [Wlᵀ ; Wrᵀ] q j + b j. A sum over 128 positions is the sum
  over the first 64 plus the sum over the last 64, and addition on the extended reals is commutative and associative, so this
  is the reference's arrangement, entry by entry, whatever the entries are — no finiteness is used (Proof/SageSpec.lean,
  Proof/KernelBlock.lean). A block of rows of the layer depends only on those rows of `S`, `C` and `x`, the ten blocks cover the
  100000 rows, so the kernel's result array ends holding the layer (Proof/Whole.lean).

  The three frames are the generated ones (the reference's is its generated run with the result dropped); the ideal pass
  rewrote nothing, so there is nothing to preserve.
-/
import proofs.«157558_j49675591746181_2_alg».proof.Defs
import proofs.«157558_j49675591746181_2_alg».proof.Proof.Gen.Kernel
import proofs.«157558_j49675591746181_2_alg».proof.Proof.Gen.Kernel.Skeleton
import proofs.«157558_j49675591746181_2_alg».proof.Proof.Gen.Kernel.Launch
import proofs.«157558_j49675591746181_2_alg».proof.Proof.Gen.Kernel.Points
import proofs.«157558_j49675591746181_2_alg».proof.Proof.Gen.Kernel.Frame
import proofs.«157558_j49675591746181_2_alg».proof.Proof.Gen.KernelIdeal
import proofs.«157558_j49675591746181_2_alg».proof.Proof.Gen.KernelIdeal.Skeleton
import proofs.«157558_j49675591746181_2_alg».proof.Proof.Gen.KernelIdeal.Launch
import proofs.«157558_j49675591746181_2_alg».proof.Proof.Gen.KernelIdeal.Points
import proofs.«157558_j49675591746181_2_alg».proof.Proof.Gen.KernelIdeal.Frame
import proofs.«157558_j49675591746181_2_alg».proof.Proof.Gen.ReferenceIdeal
import proofs.«157558_j49675591746181_2_alg».proof.Proof.Gen.Pre_finite_inputs
import proofs.«157558_j49675591746181_2_alg».proof.Proof.Gen.KernelIdeal.Value
import proofs.«157558_j49675591746181_2_alg».proof.Proof.Gen.ReferenceIdeal.Run
import proofs.«157558_j49675591746181_2_alg».proof.Proof.Gen.ReferenceIdeal.Read
import proofs.«157558_j49675591746181_2_alg».proof.Proof.Whole
import proofs.«157558_j49675591746181_2_alg».proof.Proof.RefIsSpec
import proofs.«157558_j49675591746181_2_alg».proof.Proof.PrefixAgree
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the arguments, the kernel's result array ends holding the layer of the arguments
    (Proof/Whole.lean) and the reference's result is the layer of the same neighbour sums and counts (Proof/RefIsSpec.lean,
    Proof/PrefixAgree.lean). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_is_layer,
    (hagree c).1, (hagree c).2.1, (hagree c).2.2.1, (hagree c).2.2.2.1, (hagree c).2.2.2.2]
  unfold Cert.KernelIdeal.Whole.result
  rw [Cert.Prefix.summed_agree, Cert.Prefix.count_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
